-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S1024x8448 : Shape := ⟨2, ![1024, 8448]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

class Facts : Prop where
  bcast_S_S1024x8448 : S_.BroadcastsInDim S1024x8448 (![] : Fin 0 → Fin S1024x8448.rank)
  reducesTo_S1024x8448_S_d0_1 : S1024x8448.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S1024x1024 .f32) (main_arg6 : FVec F S1024 .f32) (main_arg7 : FVec F S1x1024 .f32) (main_arg8 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x1024 .f32 := Host.absf main_arg7
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg8 main_v33

def fn {F : FTy → Type} [FloatOps F] (main_arg0 : IVec S4096x256 32) (main_arg1 : FVec F S1024x8448 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1x1024 .f32) (main_arg8 : FVec F S1 .f32) : IVec S_ 1 :=
  let main_v0 : FVec F S1024x8448 .f32 := Host.absf main_arg1
  let main_cst : FVec F S_ .f32 := constant S_ .f32 0x7F800000#32
  let main_v1 : FVec F S1024x8448 .f32 := broadcastInDim S1024x8448 ![] bcast_S_S1024x8448 main_cst
  let main_v2 : IVec S1024x8448 1 := cmpf .olt main_v0 main_v1
  let main_c : IVec S_ 1 := constantI S_ 1 1#1
  let main_v3 : IVec S_ 1 := (fun x v => Host.reduce IntOp.andi x v reducesTo_S1024x8448_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_v13 main_v16
-- ==== Kernel.lean ====
abbrev S4096x256 : Shape := ⟨2, ![4096, 256]⟩
abbrev S1024x8448 : Shape := ⟨2, ![1024, 8448]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S8448x1024 : Shape := ⟨2, ![8448, 1024]⟩
abbrev S1024x1 : Shape := ⟨2, ![1024, 1]⟩
abbrev S1x1 : Shape := ⟨2, ![1, 1]⟩
abbrev S4096x1 : Shape := ⟨2, ![4096, 1]⟩
abbrev S128x256 : Shape := ⟨2, ![128, 256]⟩
abbrev S128x1 : Shape := ⟨2, ![128, 1]⟩
abbrev S1x1x33 : Shape := ⟨3, ![1, 1, 33]⟩
abbrev S128x256x1 : Shape := ⟨3, ![128, 256, 1]⟩
abbrev S128x256x33 : Shape := ⟨3, ![128, 256, 33]⟩
abbrev S128x8448 : Shape := ⟨2, ![128, 8448]⟩
abbrev S128x1024 : Shape := ⟨2, ![128, 1024]⟩

abbrev nBuf : Space → Nat
  | .hbm => 22
  | .vmem => 12
  | .smem => 0
  | _ => 0

abbrev bufTy : (tb : Table) → Fin (tcTables nBuf tb) → BufTy
  | .hbm, ⟨0, _⟩ => ⟨S4096x256, .i32⟩
  | .hbm, ⟨1, _⟩ => ⟨S1024x8448, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1, .f32⟩
  | .hbm, ⟨9, _⟩ => ⟨S8448x1024, .f32⟩
  | .hbm, ⟨10, _⟩ => ⟨S8448x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1, .f32⟩
  | .hbm, ⟨16, _⟩ => ⟨S1024x1, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1, .f32⟩
  | .hbm, ⟨21, _⟩ => ⟨S4096x1, .f32⟩
  | .local _ .vmem, ⟨0, _⟩ => ⟨S128x256, .i32⟩
  | .local _ .vmem, ⟨1, _⟩ => ⟨S128x256, .i32⟩
  | .local _ .vmem, ⟨2, _⟩ => ⟨S8448x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1, .bf16⟩
  | .local _ .vmem, ⟨9, _⟩ => ⟨S1x1, .f32⟩
  | .local _ .vmem, ⟨10, _⟩ => ⟨S128x1, .f32⟩
  | .local _ .vmem, ⟨11, _⟩ => ⟨S128x1, .f32⟩
  | _, _ => ⟨S4096x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8448x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x8448_S8448x1024_1_0 : S1024x8448.Transposes [1, 0] S8448x1024
  bitsLt_bf16_f32 : FTy.bits .bf16 < FTy.bits .f32
  transposes_S1024x1024_S1024x1024_1_0 : S1024x1024.Transposes [1, 0] S1024x1024
  transposes_S1x1024_S1024x1_1_0 : S1x1024.Transposes [1, 0] S1024x1
  shapeCasts_S1024_S1x1024 : S1024.ShapeCasts S1x1024
  shapeCasts_S1_S1x1 : S1.ShapeCasts S1x1
  inb_S128x256_S128x256_0_0 : ∀ a, (![0, 0] : Fin 2 → Nat) a + S128x256.size a ≤ S128x256.size a
  h_S128x256 : 0 < S128x256.numel
  iota_S1x1x33_d2_w32 : S1x1x33.Iotas .tc 32 [2]
  shapeCasts_S128x256_S128x256x1 : S128x256.ShapeCasts S128x256x1
  broadcasts_S128x256x1_S128x256x33 : S128x256x1.Broadcasts S128x256x33
  broadcasts_S1x1x33_S128x256x33 : S1x1x33.Broadcasts S128x256x33
  natLt_1_32 : 1 < 32
  shapeCasts_S128x256x33_S128x8448 : S128x256x33.ShapeCasts S128x8448
  inb_S8448x1024_S8448x1024_0_0 : ∀ a, (![0, 0] : Fin 2 → Nat) a + S8448x1024.size a ≤ S8448x1024.size a
  h_S8448x1024 : 0 < S8448x1024.numel
  shapeCasts_S8448x1024_S8448x1024 : S8448x1024.ShapeCasts S8448x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  dot_S128x8448_S8448x1024_S128x1024_1_0_0_1_n_n_wf : DotDims.WF S128x8448 S8448x1024 S128x1024 [1] [0] [0] [1] [] []
  dot_S128x1024_S1024x1024_S128x1024_1_0_0_1_n_n_wf : DotDims.WF S128x1024 S1024x1024 S128x1024 [1] [0] [0] [1] [] []
  dot_S128x1024_S1024x1_S128x1_1_0_0_1_n_n_wf : DotDims.WF S128x1024 S1024x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S4096x256.size a
  hwx0_0 : ∀ i : grid0.Coords, EltTy.bits .i32 = 32 ∨ (Rect.block (s := S4096x256) S128x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8448x1024.size a ≤ S8448x1024.size a
  hwx0_1 : ∀ i : grid0.Coords, EltTy.bits .bf16 = 32 ∨ (Rect.block (s := S8448x1024) S8448x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S1024x1.size a
  hwx0_7 : ∀ i : grid0.Coords, EltTy.bits .bf16 = 32 ∨ (Rect.block (s := S1024x1) S1024x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S4096x1.size a
  hwx0_9 : ∀ i : grid0.Coords, EltTy.bits .f32 = 32 ∨ (Rect.block (s := S4096x1) S128x1.size (cc0_transform_9 i) (hinb0_9 i)).WholeWords (EltTy.packing .f32)

variable [Facts₀]

def dot_S128x8448_S8448x1024_S128x1024_1_0_0_1_n_n : DotDims S128x8448 S8448x1024 S128x1024 where
  lhsContracting := [1]
  rhsContracting := [0]
  lhsNonContracting := [0]
  rhsNonContracting := [1]
  lhsBatch := []
  rhsBatch := []
  wf := dot_S128x8448_S8448x1024_S128x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S1024x1_S128x1_1_0_0_1_n_n : DotDims S128x1024 S1024x1 S128x1 where
  lhsContracting := [1]
  rhsContracting := [0]
  lhsNonContracting := [0]
  rhsNonContracting := [1]
  lhsBatch := []
  rhsBatch := []
  wf := dot_S128x1024_S1024x1_S128x1_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8448x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S128x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x256 : Shape := ⟨2, ![4096, 256]⟩
abbrev S1024x8448 : Shape := ⟨2, ![1024, 8448]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S4096x256x1 : Shape := ⟨3, ![4096, 256, 1]⟩
abbrev S1x1x33 : Shape := ⟨3, ![1, 1, 33]⟩
abbrev S4096x256x33 : Shape := ⟨3, ![4096, 256, 33]⟩
abbrev S4096x8448 : Shape := ⟨2, ![4096, 8448]⟩
abbrev S8448x1024 : Shape := ⟨2, ![8448, 1024]⟩
abbrev S4096x1024 : Shape := ⟨2, ![4096, 1024]⟩
abbrev S_ : Shape := ⟨0, ![]⟩
abbrev S1024x1 : Shape := ⟨2, ![1024, 1]⟩
abbrev S4096x1 : Shape := ⟨2, ![4096, 1]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x256, .i32⟩
  | .hbm, ⟨1, _⟩ => ⟨S1024x8448, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1, .f32⟩
  | .hbm, ⟨9, _⟩ => ⟨S4096x256x1, .i32⟩
  | .hbm, ⟨10, _⟩ => ⟨S1x1x33, .i32⟩
  | .hbm, ⟨11, _⟩ => ⟨S4096x256x33, .i32⟩
  | .hbm, ⟨12, _⟩ => ⟨S4096x256x33, .i32⟩
  | .hbm, ⟨13, _⟩ => ⟨S4096x256x33, .i1⟩
  | .hbm, ⟨14, _⟩ => ⟨S4096x256x33, .f32⟩
  | .hbm, ⟨15, _⟩ => ⟨S4096x8448, .f32⟩
  | .hbm, ⟨16, _⟩ => ⟨S8448x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S1024x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S1024x1, .f32⟩
  | .hbm, ⟨41, _⟩ => ⟨S4096x1, .f32⟩
  | .hbm, ⟨42, _⟩ => ⟨S1x1, .f32⟩
  | .hbm, ⟨43, _⟩ => ⟨S4096x1, .f32⟩
  | .hbm, ⟨44, _⟩ => ⟨S4096x1, .f32⟩
  | _, _ => ⟨S4096x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_cst : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call2_cst : Ref sig .tc := ⟨.hbm, 29, rfl⟩
abbrev main_call2_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call3_cst : Ref sig .tc := ⟨.hbm, 37, rfl⟩
abbrev main_call3_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩

abbrev nD : Nat := 1
abbrev τ : Topo := Topo.v7x

variable {F : FTy → Type} [FloatOps F]

class Facts₀ : Prop where
  bcast_S4096x256_S4096x256x1_0_1 : S4096x256.BroadcastsInDim S4096x256x1 (![0, 1] : Fin 2 → Fin S4096x256x1.rank)
  bcast_S4096x256x1_S4096x256x33_0_1_2 : S4096x256x1.BroadcastsInDim S4096x256x33 (![0, 1, 2] : Fin 3 → Fin S4096x256x33.rank)
  bcast_S1x1x33_S4096x256x33_0_1_2 : S1x1x33.BroadcastsInDim S4096x256x33 (![0, 1, 2] : Fin 3 → Fin S4096x256x33.rank)
  shapeCasts_S4096x256x33_S4096x8448 : S4096x256x33.ShapeCasts S4096x8448
  transposes_S1024x8448_S8448x1024_1_0 : S1024x8448.Transposes [1, 0] S8448x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S1024x1024_S1024x1024_1_0 : S1024x1024.Transposes [1, 0] S1024x1024
  transposes_S1x1024_S1024x1_1_0 : S1x1024.Transposes [1, 0] S1024x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x8448_S8448x1024_S4096x1024_1_0_0_1_n_n_wf : DotDims.WF S4096x8448 S8448x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x1_S4096x1_1_0_0_1_n_n_wf : DotDims.WF S4096x1024 S1024x1 S4096x1 [1] [0] [0] [1] [] []

variable [Facts₀]

def dot_S4096x8448_S8448x1024_S4096x1024_1_0_0_1_n_n : DotDims S4096x8448 S8448x1024 S4096x1024 where
  lhsContracting := [1]
  rhsContracting := [0]
  lhsNonContracting := [0]
  rhsNonContracting := [1]
  lhsBatch := []
  rhsBatch := []
  wf := dot_S4096x8448_S8448x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.Spec.lean ====
/-
  The network one row at a time, as pure functions on the extended reals.

  A row of token ids `xr : Fin 256 → BitVec 32` is spread into 256 · 33 = 8448 indicator entries: entry `k` is `1`
  when the id at position `k / 33` equals `k % 33`, else `0` (position major, vocabulary minor: the row-major
  flattening of a [256, 33] table). Three layers follow, each `max (Σ_k h k · W d k + b d) z` with `z` the zero
  the rectifier compares against, and a last affine read-out to one number. Every weight matrix is indexed
  [output unit, input unit], as the arguments are stored. Nothing here mentions a program: both programs are
  shown to compute `rowOut` of row `r` of the ids at result index (r, 0).
-/
import Idealize.ShloMosaic.PureOps.Ideal
import Idealize.ShloMosaic.PureOps.Ideal.Laws
import Idealize.ShloMosaic.Lib.ValueIdx

noncomputable section

namespace Cert.OneHotMlp

open Idealize.ShloMosaic Idealize.ShloMosaic.ValueIdx

/-- The zero a rectifier compares against: the value of the all-zero f32 word. Both programs spell it with the same
    word, so it is carried as a name and never evaluated. -/
def zeroF : EReal := Ideal.ofBits .f32 0x00000000#32

/-- Entry `k` of the indicator row of the ids `xr`: the one-bit answer of "id at position k / 33 equals k % 33",
    read as an unsigned number. -/
def hot (xr : Fin 256 → BitVec 32) (k : Fin 8448) : EReal :=
  (((IntOp.cmpi .eq (xr ⟨k.val / 33, by have := k.isLt; omega⟩) (BitVec.ofNat 32 (k.val % 33))).toNat : ℝ) : EReal)

/-- The first hidden layer at unit `d`, from the indicator row. -/
def hidden1 (W1 : (⟨2, ![1024, 8448]⟩ : Shape).Idx → EReal) (b1 : (⟨1, ![1024]⟩ : Shape).Idx → EReal)
    (xr : Fin 256 → BitVec 32) (d : Fin 1024) : EReal :=
  max ((∑ k : Fin 8448, hot xr k * W1 (ix2 d k)) + b1 (ix1 d)) zeroF

/-- A later hidden layer at unit `d`, from the previous layer's row `h`. -/
def hidden (W : (⟨2, ![1024, 1024]⟩ : Shape).Idx → EReal) (b : (⟨1, ![1024]⟩ : Shape).Idx → EReal)
    (h : Fin 1024 → EReal) (d : Fin 1024) : EReal :=
  max ((∑ k : Fin 1024, h k * W (ix2 d k)) + b (ix1 d)) zeroF

/-- The read-out: one affine form of the last hidden row. -/
def readout (Wo : (⟨2, ![1, 1024]⟩ : Shape).Idx → EReal) (bo : (⟨1, ![1]⟩ : Shape).Idx → EReal)
    (h : Fin 1024 → EReal) : EReal :=
  (∑ k : Fin 1024, h k * Wo (ix2 (0 : Fin 1) k)) + bo (ix1 (0 : Fin 1))

/-- The whole network on one row of ids. -/
def rowOut (W1 : (⟨2, ![1024, 8448]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (Wo : (⟨2, ![1, 1024]⟩ : Shape).Idx → EReal) (bo : (⟨1, ![1]⟩ : Shape).Idx → EReal)
    (xr : Fin 256 → BitVec 32) : EReal :=
  readout Wo bo (hidden W3 b3 (hidden W2 b2 (hidden1 W1 b1 xr)))

/-- The result array: at (r, 0) the network on row `r` of the ids. -/
def net (x : (⟨2, ![4096, 256]⟩ : Shape).Idx → BitVec 32)
    (W1 : (⟨2, ![1024, 8448]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (Wo : (⟨2, ![1, 1024]⟩ : Shape).Idx → EReal) (bo : (⟨1, ![1]⟩ : Shape).Idx → EReal) :
    (⟨2, ![4096, 1]⟩ : Shape).Idx → EReal :=
  fun i => rowOut W1 b1 W2 b2 W3 b3 Wo bo (fun p => x (ix2 (⟨(i 0).val, (i 0).isLt⟩ : Fin 4096) p))

/-- A one-bit word widened to 32 bits and read as a signed number is the bit read as an unsigned number: the
    widened word is 0 or 1, never negative. -/
theorem toInt_setWidth_one (b : BitVec 1) : ((b.setWidth 32).toInt : ℝ) = (b.toNat : ℝ) := by
  rcases BitVec.eq_zero_or_eq_one b with h | h <;> subst h <;> norm_num <;> rfl

end Cert.OneHotMlp

end
-- ==== Proof.RefSide.lean ====
/-
  The reference program computes `net`.

  Its stages are read one row at a time. The indicator table is reshaped from [4096, 256, 33] to [4096, 8448]
  row-major, so column `k` of row `r` is the table at (r, k / 33, k % 33): the id at (r, k / 33) compared with
  k % 33. Each product with a transposed weight matrix is, at (r, d), the sum over the shared index `k` of the left
  row `r` at `k` times the weight at [d, k]; each bias is a row vector repeated down the rows; each rectifier is
  `max` against the zero word. So stage by stage the row `r` of a stage is the layer function of row `r` of the
  stage before it, and the last stage at (r, 0) is `rowOut` of row `r` of the ids.
-/
import proofs.«111496_j73813307949089_1_alg».proof.Proof.Gen.ReferenceIdeal.Read
import proofs.«111496_j73813307949089_1_alg».proof.Proof.Spec

noncomputable section

namespace Cert.OneHotMlp.Ref

open Cert.ReferenceIdeal Cert.ReferenceIdeal.Read Idealize.ShloMosaic Idealize.ShloMosaic.ValueIdx Cert.OneHotMlp

variable (x0 : (⟨S4096x256, .i32⟩ : BufTy).Contents (Elt Ideal))
  (x1 : (⟨S1024x8448, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1x1024, .f32⟩ : BufTy).Contents (Elt Ideal)) (x8 : (⟨S1, .f32⟩ : BufTy).Contents (Elt Ideal))

/-- The reshaped indicator table at (r, k) is the indicator entry `k` of row `r` of the ids. -/
theorem indicator_at (r : Fin 4096) (k : Fin 8448) :
    val_main_v1 (F := Ideal) x0 (ix2 r k) = hot (fun p => x0 (ix2 r p)) k := by
  rw [val_main_v1_apply, val_main_v0_apply, val_main_call0_v4_apply, val_main_call0_v2_apply, val_main_call0_v0_apply,
    val_main_call0_v3_apply, val_main_call0_v1_apply]
  have hk : k.val < 8448 := k.isLt
  have hr : r.val < 4096 := r.isLt
  have e1 : idx_main_call0_v0 (idx_main_call0_v2 (idx_main_v1 (ix2 r k))) = ix2 r (⟨k.val / 33, by omega⟩ : Fin 256) := by
    funext a; apply Fin.ext
    match a with
    | ⟨0, _⟩ => show (r.val * 8448 + k.val) / 8448 = r.val; omega
    | ⟨1, _⟩ => show (r.val * 8448 + k.val) / 33 % 256 = k.val / 33; omega
  have e2 : ((idx_main_call0_v3 (idx_main_v1 (ix2 r k))) 2).val = k.val % 33 := by
    show (r.val * 8448 + k.val) % 33 = k.val % 33; omega
  rw [e1, e2]
  rfl

/-- Row `r` of the first rectified stage is the first hidden layer of row `r` of the ids. -/
theorem layer1_at (r : Fin 4096) (d : Fin 1024) :
    val_main_v7 (F := Ideal) x0 x1 x2 (ix2 r d) = hidden1 x1 x2 (fun p => x0 (ix2 r p)) d := by
  rw [val_main_v7_apply, val_main_v6_apply, val_main_v3_apply, val_main_v5_apply, val_main_v4_apply,
    val_main_call1_v0_apply, val_main_call1_cst_apply]
  have el : ∀ k : Fin 8448, lidx_main_v3 (ix2 r d) k = ix2 r k := fun k => funext fun a => Fin.ext (by
    match a with | ⟨0, _⟩ => rfl | ⟨1, _⟩ => rfl)
  have er : ∀ k : Fin 8448, idx_main_v2 (ridx_main_v3 (ix2 r d) k) = ix2 d k := fun k => funext fun a => Fin.ext (by
    match a with | ⟨0, _⟩ => rfl | ⟨1, _⟩ => rfl)
  have eb : idx_main_v4 (idx_main_v5 (ix2 r d)) = ix1 d := funext fun a => Fin.ext (by
    match a with | ⟨0, _⟩ => rfl)
  simp only [el, val_main_v2_apply, er, eb, indicator_at]
  rfl

/-- Row `r` of the second rectified stage is a hidden layer of row `r` of the first. -/
theorem layer2_at (r : Fin 4096) (d : Fin 1024) :
    val_main_v13 (F := Ideal) x0 x1 x2 x3 x4 (ix2 r d) = hidden x3 x4 (fun k => val_main_v7 (F := Ideal) x0 x1 x2 (ix2 r k)) d := by
  rw [val_main_v13_apply, val_main_v12_apply, val_main_v9_apply, val_main_v11_apply, val_main_v10_apply,
    val_main_call2_v0_apply, val_main_call2_cst_apply]
  have el : ∀ k : Fin 1024, lidx_main_v9 (ix2 r d) k = ix2 r k := fun k => funext fun a => Fin.ext (by
    match a with | ⟨0, _⟩ => rfl | ⟨1, _⟩ => rfl)
  have er : ∀ k : Fin 1024, idx_main_v8 (ridx_main_v9 (ix2 r d) k) = ix2 d k := fun k => funext fun a => Fin.ext (by
    match a with | ⟨0, _⟩ => rfl | ⟨1, _⟩ => rfl)
  have eb : idx_main_v10 (idx_main_v11 (ix2 r d)) = ix1 d := funext fun a => Fin.ext (by
    match a with | ⟨0, _⟩ => rfl)
  simp only [el, val_main_v8_apply, er, eb]
  rfl

/-- Row `r` of the third rectified stage is a hidden layer of row `r` of the second. -/
theorem layer3_at (r : Fin 4096) (d : Fin 1024) :
    val_main_v19 (F := Ideal) x0 x1 x2 x3 x4 x5 x6 (ix2 r d)
      = hidden x5 x6 (fun k => val_main_v13 (F := Ideal) x0 x1 x2 x3 x4 (ix2 r k)) d := by
  rw [val_main_v19_apply, val_main_v18_apply, val_main_v15_apply, val_main_v17_apply, val_main_v16_apply,
    val_main_call3_v0_apply, val_main_call3_cst_apply]
  have el : ∀ k : Fin 1024, lidx_main_v15 (ix2 r d) k = ix2 r k := fun k => funext fun a => Fin.ext (by
    match a with | ⟨0, _⟩ => rfl | ⟨1, _⟩ => rfl)
  have er : ∀ k : Fin 1024, idx_main_v14 (ridx_main_v15 (ix2 r d) k) = ix2 d k := fun k => funext fun a => Fin.ext (by
    match a with | ⟨0, _⟩ => rfl | ⟨1, _⟩ => rfl)
  have eb : idx_main_v16 (idx_main_v17 (ix2 r d)) = ix1 d := funext fun a => Fin.ext (by
    match a with | ⟨0, _⟩ => rfl)
  simp only [el, val_main_v14_apply, er, eb]
  rfl

/-- The last stage at (r, 0) is the read-out of row `r` of the third rectified stage. -/
theorem out_at (r : Fin 4096) (q : Fin 1) :
    val_main_v24 (F := Ideal) x0 x1 x2 x3 x4 x5 x6 x7 x8 (ix2 r q)
      = readout x7 x8 (fun k => val_main_v19 (F := Ideal) x0 x1 x2 x3 x4 x5 x6 (ix2 r k)) := by
  rw [val_main_v24_apply, val_main_v21_apply, val_main_v23_apply, val_main_v22_apply]
  have el : ∀ k : Fin 1024, lidx_main_v21 (ix2 r q) k = ix2 r k := fun k => funext fun a => Fin.ext (by
    match a with | ⟨0, _⟩ => rfl | ⟨1, _⟩ => rfl)
  have er : ∀ k : Fin 1024, idx_main_v20 (ridx_main_v21 (ix2 r q) k) = ix2 (0 : Fin 1) k := fun k => funext fun a => Fin.ext (by
    match a with | ⟨0, _⟩ => (show q.val = 0; omega) | ⟨1, _⟩ => rfl)
  have eb : idx_main_v22 (idx_main_v23 (ix2 r q)) = ix1 (0 : Fin 1) := funext fun a => Fin.ext (by
    match a with | ⟨0, _⟩ => rfl)
  simp only [el, val_main_v20_apply, er, eb]
  rfl

/-- The reference's result stage is `net` of the arguments. -/
theorem stage_eq_net :
    val_main_v24 (F := Ideal) x0 x1 x2 x3 x4 x5 x6 x7 x8 = net x0 x1 x2 x3 x4 x5 x6 x7 x8 := by
  funext i
  obtain ⟨r, q, rfl⟩ : ∃ (r : Fin 4096) (q : Fin 1), i = ix2 r q := ⟨i 0, i 1, eq_ix2 i⟩
  rw [out_at,
    show (fun k => val_main_v19 (F := Ideal) x0 x1 x2 x3 x4 x5 x6 (ix2 r k))
      = hidden x5 x6 (fun k => val_main_v13 (F := Ideal) x0 x1 x2 x3 x4 (ix2 r k)) from funext fun d => layer3_at x0 x1 x2 x3 x4 x5 x6 r d,
    show (fun k => val_main_v13 (F := Ideal) x0 x1 x2 x3 x4 (ix2 r k))
      = hidden x3 x4 (fun k => val_main_v7 (F := Ideal) x0 x1 x2 (ix2 r k)) from funext fun d => layer2_at x0 x1 x2 x3 x4 r d,
    show (fun k => val_main_v7 (F := Ideal) x0 x1 x2 (ix2 r k))
      = hidden1 x1 x2 (fun p => x0 (ix2 r p)) from funext fun d => layer1_at x0 x1 x2 r d]
  rfl

end Cert.OneHotMlp.Ref

end
-- ==== Proof.KernelPayload.lean ====
/-
  One grid point's body computes `rowOut` of each row of its block of ids.

  The body builds the indicator table of its 128 rows of ids as a [128, 256, 33] vector (the id at (r, p) compared
  with the lane number v, the one-bit answer widened to 32 bits and converted as a signed number, which for a
  widened bit is the bit itself), flattens it row-major to [128, 8448] — entry k of row r is the table at
  (r, k / 33, k % 33) —, and multiplies it into the first weight block, stored [input unit, output unit]. A product
  into a zero accumulator is, at (r, d), the plain sum over the shared index of left (r, k) times right (k, d).
  A bias block is one row repeated down the 128 rows; a rectifier is `max` against the zero word; a change of float
  format is the identity on extended reals. So each layer of the body, read at (r, d), is the layer function of
  row r of the vector before it, with the weight block read transposed and the bias block read along its one row.
-/
import proofs.«111496_j73813307949089_1_alg».proof.Proof.Gen.KernelIdeal.Skeleton
import proofs.«111496_j73813307949089_1_alg».proof.Proof.Spec
import Idealize.ShloMosaic.Lib.Pipeline.Value
import Idealize.ShloMosaic.Lib.ValueIdx
import Idealize.ShloMosaic.PureOps.Ideal.Laws

noncomputable section

namespace Cert.OneHotMlp.Body

open Cert.KernelIdeal Cert.KernelIdeal.Gen Idealize.ShloMosaic Idealize.ShloMosaic.ValueIdx Cert.OneHotMlp

/-! ## The three products, read at an index -/

theorem prod_in_l0 (i : S128x1024.Idx) (q : dot_S128x8448_S8448x1024_S128x1024_1_0_0_1_n_n.contr.Idx) : (dot_S128x8448_S8448x1024_S128x1024_1_0_0_1_n_n.lhsIdx i q 0).val = (i 0).val := by
  unfold DotDims.lhsIdx
  rw [dif_neg (show ¬(0 : Fin S128x8448.rank) ∈ dot_S128x8448_S8448x1024_S128x1024_1_0_0_1_n_n.lhsBatch by decide), dif_pos (show (0 : Fin S128x8448.rank) ∈ dot_S128x8448_S8448x1024_S128x1024_1_0_0_1_n_n.lhsNonContracting by decide)]
  rfl
theorem prod_in_r1 (i : S128x1024.Idx) (q : dot_S128x8448_S8448x1024_S128x1024_1_0_0_1_n_n.contr.Idx) : (dot_S128x8448_S8448x1024_S128x1024_1_0_0_1_n_n.rhsIdx i q 1).val = (i 1).val := by
  unfold DotDims.rhsIdx
  rw [dif_neg (show ¬(1 : Fin S8448x1024.rank) ∈ dot_S128x8448_S8448x1024_S128x1024_1_0_0_1_n_n.rhsBatch by decide), dif_pos (show (1 : Fin S8448x1024.rank) ∈ dot_S128x8448_S8448x1024_S128x1024_1_0_0_1_n_n.rhsNonContracting by decide)]
  rfl
/-- The indicator rows times the first weight block: at (r, d) the sum over the 8448 indicator entries. -/
theorem prod_in (l : FVec Ideal S128x8448 .bf16) (w : FVec Ideal S8448x1024 .bf16) (r : Fin 128) (d : Fin 1024) :
    matmul dot_S128x8448_S8448x1024_S128x1024_1_0_0_1_n_n none l w (constant (F := Ideal) S128x1024 .f32 0x00000000#32) (ix2 r d)
      = ∑ k : Fin 8448, l (ix2 r k) * w (ix2 k d) := by
  simp only [matmul]
  rw [Ideal.matmul_constant_zero_apply, ← Equiv.sum_comp (ValueIdx.contrEquiv1 dot_S128x8448_S8448x1024_S128x1024_1_0_0_1_n_n 8448 rfl rfl).symm]
  refine Finset.sum_congr rfl fun k _ => ?_
  have hk := ValueIdx.contrEquiv1_symm_val dot_S128x8448_S8448x1024_S128x1024_1_0_0_1_n_n 8448 rfl rfl k
  have el : dot_S128x8448_S8448x1024_S128x1024_1_0_0_1_n_n.lhsIdx (ix2 r d) ((ValueIdx.contrEquiv1 dot_S128x8448_S8448x1024_S128x1024_1_0_0_1_n_n 8448 rfl rfl).symm k) = ix2 r k := funext fun a => Fin.ext (by
    match a with
    | ⟨0, _⟩ => exact prod_in_l0 _ _
    | ⟨1, _⟩ => exact (dot_S128x8448_S8448x1024_S128x1024_1_0_0_1_n_n.lhsIdx_val_of_single rfl _ _).trans hk)
  have er : dot_S128x8448_S8448x1024_S128x1024_1_0_0_1_n_n.rhsIdx (ix2 r d) ((ValueIdx.contrEquiv1 dot_S128x8448_S8448x1024_S128x1024_1_0_0_1_n_n 8448 rfl rfl).symm k) = ix2 k d := funext fun a => Fin.ext (by
    match a with
    | ⟨0, _⟩ => exact (dot_S128x8448_S8448x1024_S128x1024_1_0_0_1_n_n.rhsIdx_val_of_single rfl _ _).trans hk
    | ⟨1, _⟩ => exact prod_in_r1 _ _)
  rw [el, er]

theorem prod_mid_l0 (i : S128x1024.Idx) (q : dot_S128x1024_S1024x1024_S128x1024_1_0_0_1_n_n.contr.Idx) : (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem prod_mid_r1 (i : S128x1024.Idx) (q : dot_S128x1024_S1024x1024_S128x1024_1_0_0_1_n_n.contr.Idx) : (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl
/-- A hidden block times a square weight block: at (r, d) the sum over the 1024 hidden units. -/
theorem prod_mid (l : FVec Ideal S128x1024 .bf16) (w : FVec Ideal S1024x1024 .bf16) (r : Fin 128) (d : Fin 1024) :
    matmul dot_S128x1024_S1024x1024_S128x1024_1_0_0_1_n_n none l w (constant (F := Ideal) S128x1024 .f32 0x00000000#32) (ix2 r d)
      = ∑ k : Fin 1024, l (ix2 r k) * w (ix2 k d) := by
  simp only [matmul]
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 r d) ((ValueIdx.contrEquiv1 dot_S128x1024_S1024x1024_S128x1024_1_0_0_1_n_n 1024 rfl rfl).symm k) = ix2 r k := funext fun a => Fin.ext (by
    match a with
    | ⟨0, _⟩ => exact prod_mid_l0 _ _
    | ⟨1, _⟩ => exact (dot_S128x1024_S1024x1024_S128x1024_1_0_0_1_n_n.lhsIdx_val_of_single rfl _ _).trans hk)
  have er : dot_S128x1024_S1024x1024_S128x1024_1_0_0_1_n_n.rhsIdx (ix2 r d) ((ValueIdx.contrEquiv1 dot_S128x1024_S1024x1024_S128x1024_1_0_0_1_n_n 1024 rfl rfl).symm k) = ix2 k d := funext fun a => Fin.ext (by
    match a with
    | ⟨0, _⟩ => exact (dot_S128x1024_S1024x1024_S128x1024_1_0_0_1_n_n.rhsIdx_val_of_single rfl _ _).trans hk
    | ⟨1, _⟩ => exact prod_mid_r1 _ _)
  rw [el, er]

theorem prod_out_l0 (i : S128x1.Idx) (q : dot_S128x1024_S1024x1_S128x1_1_0_0_1_n_n.contr.Idx) : (dot_S128x1024_S1024x1_S128x1_1_0_0_1_n_n.lhsIdx i q 0).val = (i 0).val := by
  unfold DotDims.lhsIdx
  rw [dif_neg (show ¬(0 : Fin S128x1024.rank) ∈ dot_S128x1024_S1024x1_S128x1_1_0_0_1_n_n.lhsBatch by decide), dif_pos (show (0 : Fin S128x1024.rank) ∈ dot_S128x1024_S1024x1_S128x1_1_0_0_1_n_n.lhsNonContracting by decide)]
  rfl
theorem prod_out_r1 (i : S128x1.Idx) (q : dot_S128x1024_S1024x1_S128x1_1_0_0_1_n_n.contr.Idx) : (dot_S128x1024_S1024x1_S128x1_1_0_0_1_n_n.rhsIdx i q 1).val = (i 1).val := by
  unfold DotDims.rhsIdx
  rw [dif_neg (show ¬(1 : Fin S1024x1.rank) ∈ dot_S128x1024_S1024x1_S128x1_1_0_0_1_n_n.rhsBatch by decide), dif_pos (show (1 : Fin S1024x1.rank) ∈ dot_S128x1024_S1024x1_S128x1_1_0_0_1_n_n.rhsNonContracting by decide)]
  rfl
/-- The last hidden block times the read-out column: at (r, 0) the sum over the 1024 hidden units. -/
theorem prod_out (l : FVec Ideal S128x1024 .bf16) (w : FVec Ideal S1024x1 .bf16) (r : Fin 128) (d : Fin 1) :
    matmul dot_S128x1024_S1024x1_S128x1_1_0_0_1_n_n none l w (constant (F := Ideal) S128x1 .f32 0x00000000#32) (ix2 r d)
      = ∑ k : Fin 1024, l (ix2 r k) * w (ix2 k d) := by
  simp only [matmul]
  rw [Ideal.matmul_constant_zero_apply, ← Equiv.sum_comp (ValueIdx.contrEquiv1 dot_S128x1024_S1024x1_S128x1_1_0_0_1_n_n 1024 rfl rfl).symm]
  refine Finset.sum_congr rfl fun k _ => ?_
  have hk := ValueIdx.contrEquiv1_symm_val dot_S128x1024_S1024x1_S128x1_1_0_0_1_n_n 1024 rfl rfl k
  have el : dot_S128x1024_S1024x1_S128x1_1_0_0_1_n_n.lhsIdx (ix2 r d) ((ValueIdx.contrEquiv1 dot_S128x1024_S1024x1_S128x1_1_0_0_1_n_n 1024 rfl rfl).symm k) = ix2 r k := funext fun a => Fin.ext (by
    match a with
    | ⟨0, _⟩ => exact prod_out_l0 _ _
    | ⟨1, _⟩ => exact (dot_S128x1024_S1024x1_S128x1_1_0_0_1_n_n.lhsIdx_val_of_single rfl _ _).trans hk)
  have er : dot_S128x1024_S1024x1_S128x1_1_0_0_1_n_n.rhsIdx (ix2 r d) ((ValueIdx.contrEquiv1 dot_S128x1024_S1024x1_S128x1_1_0_0_1_n_n 1024 rfl rfl).symm k) = ix2 k d := funext fun a => Fin.ext (by
    match a with
    | ⟨0, _⟩ => exact (dot_S128x1024_S1024x1_S128x1_1_0_0_1_n_n.rhsIdx_val_of_single rfl _ _).trans hk
    | ⟨1, _⟩ => exact prod_out_r1 _ _)
  rw [el, er]

/-! ## A bias block is its one row, repeated -/

/-- A [1, 1024] bias block spread down 128 rows reads, at (r, d), the block at (0, d). -/
theorem bias_row (b : Vec Ideal S1x1024 .f32) (r : Fin 128) (d : Fin 1024) :
    broadcastTo S128x1024 (shapeCast S1x1024 b shapeCasts_S1x1024_S1x1024) broadcasts_S1x1024_S128x1024 (ix2 r d)
      = b (ix2 (0 : Fin 1) d) := by
  rw [shapeCast_self]
  exact broadcastTo_apply b broadcasts_S1x1024_S128x1024 (ix2 r d) (ix2 (0 : Fin 1) d) (fun a => match a with
    | ⟨0, _⟩ => by show 0 = if (1 : Nat) = 1 then 0 else _; rw [if_pos rfl]
    | ⟨1, _⟩ => by show d.val = if (1024 : Nat) = 1 then 0 else d.val; rw [if_neg (by decide)])

/-- The [1, 1] read-out bias spread down 128 rows reads, at (r, 0), its one entry. -/
theorem bias_one (b : Vec Ideal S1x1 .f32) (r : Fin 128) (q : Fin 1) :
    broadcastTo S128x1 (shapeCast S1x1 b shapeCasts_S1x1_S1x1) broadcasts_S1x1_S128x1 (ix2 r q)
      = b (ix2 (0 : Fin 1) (0 : Fin 1)) := by
  rw [shapeCast_self]
  exact broadcastTo_apply b broadcasts_S1x1_S128x1 (ix2 r q) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-! ## The indicator rows -/

/-- The body's indicator table of its 128 rows of ids, flattened row-major to [128, 8448]. -/
def indicatorRows (v0 : Vec Ideal S128x256 .i32) : FVec Ideal S128x8448 .bf16 :=
  shapeCast S128x8448 (truncf .bf16 (sitofp (F := Ideal) .f32 (extui 32 (cmpi .eq
        (broadcastTo S128x256x33 (shapeCast S128x256x1 v0 shapeCasts_S128x256_S128x256x1) broadcasts_S128x256x1_S128x256x33)
        (broadcastTo S128x256x33 (iota .tc S1x1x33 32 [2] iota_S1x1x33_d2_w32) broadcasts_S1x1x33_S128x256x33)) natLt_1_32))
        bitsLt_bf16_f32) shapeCasts_S128x256x33_S128x8448

/-- The flattened indicator table at (r, k) is indicator entry `k` of row `r` of the block of ids. -/
theorem indicator_at (v0 : Vec Ideal S128x256 .i32) (r : Fin 128) (k : Fin 8448) :
    indicatorRows v0 (ix2 r k) = hot (fun p => v0 (ix2 r p)) k := by
  unfold indicatorRows
  have hk : k.val < 8448 := k.isLt
  have hr : r.val < 128 := r.isLt
  rw [shapeCast_apply _ shapeCasts_S128x256x33_S128x8448 (ix2 r k)
    (ix3 r (⟨k.val / 33, by omega⟩ : Fin 256) (⟨k.val % 33, Nat.mod_lt _ (by decide)⟩ : Fin 33))
    (by rw [Shape.rowMajor_val_three, Shape.rowMajor_val_two]
        show (r.val * 256 + k.val / 33) * 33 + k.val % 33 = r.val * 8448 + k.val; omega)]
  show FloatOps.sitofp (F := Ideal) .f32 ((IntOp.cmpi .eq
      (broadcastTo S128x256x33 (shapeCast S128x256x1 v0 shapeCasts_S128x256_S128x256x1) broadcasts_S128x256x1_S128x256x33
        (ix3 r (⟨k.val / 33, by omega⟩ : Fin 256) (⟨k.val % 33, Nat.mod_lt _ (by decide)⟩ : Fin 33)))
      (broadcastTo S128x256x33 (iota .tc S1x1x33 32 [2] iota_S1x1x33_d2_w32) broadcasts_S1x1x33_S128x256x33
        (ix3 r (⟨k.val / 33, by omega⟩ : Fin 256) (⟨k.val % 33, Nat.mod_lt _ (by decide)⟩ : Fin 33)))).setWidth 32) = _
  rw [broadcastTo_apply _ broadcasts_S128x256x1_S128x256x33 _ (ix3 r (⟨k.val / 33, by omega⟩ : Fin 256) (0 : Fin 1)) (fun a => match a with
      | ⟨0, _⟩ => by show r.val = if (128 : Nat) = 1 then 0 else r.val; rw [if_neg (by decide)]
      | ⟨1, _⟩ => by show k.val / 33 = if (256 : Nat) = 1 then 0 else k.val / 33; rw [if_neg (by decide)]
      | ⟨2, _⟩ => by show 0 = if (1 : Nat) = 1 then 0 else _; rw [if_pos rfl]),
    broadcastTo_apply _ broadcasts_S1x1x33_S128x256x33 _ (ix3 (0 : Fin 1) (0 : Fin 1) (⟨k.val % 33, Nat.mod_lt _ (by decide)⟩ : Fin 33)) (fun a => match a with
      | ⟨0, _⟩ => by show 0 = if (1 : Nat) = 1 then 0 else _; rw [if_pos rfl]
      | ⟨1, _⟩ => by show 0 = if (1 : Nat) = 1 then 0 else _; rw [if_pos rfl]
      | ⟨2, _⟩ => by show k.val % 33 = if (33 : Nat) = 1 then 0 else k.val % 33; rw [if_neg (by decide)]),
    shapeCast_apply v0 shapeCasts_S128x256_S128x256x1 _ (ix2 r (⟨k.val / 33, by omega⟩ : Fin 256))
      (by rw [Shape.rowMajor_val_three, Shape.rowMajor_val_two]
          show r.val * 256 + k.val / 33 = (r.val * 256 + k.val / 33) * 1 + 0; omega)]
  unfold hot
  show (((BitVec.setWidth 32 _).toInt : ℝ) : EReal) = _
  rw [toInt_setWidth_one]
  show _ = (((IntOp.cmpi .eq (v0 (ix2 r (⟨k.val / 33, by omega⟩ : Fin 256))) (BitVec.ofNat 32 (k.val % 33))).toNat : ℝ) : EReal)
  have e : iota .tc S1x1x33 32 [2] iota_S1x1x33_d2_w32 (ix3 (0 : Fin 1) (0 : Fin 1) (⟨k.val % 33, Nat.mod_lt _ (by decide)⟩ : Fin 33))
      = BitVec.ofNat 32 (k.val % 33) := by
    show BitVec.ofNat 32 (0 * 33 + k.val % 33) = _
    rw [Nat.zero_mul, Nat.zero_add]
  rw [e]

/-! ## The layers of the body, each as a function of the vector before it -/

/-- The first layer of the body: indicator rows times the first weight block, plus the bias row, rectified. -/
def first (x0 : Vec Ideal S128x256 .i32) (x1 : Vec Ideal S8448x1024 .bf16) (x2 : Vec Ideal S1x1024 .f32) : FVec Ideal S128x1024 .f32 :=
  maximumf (addf (matmul dot_S128x8448_S8448x1024_S128x1024_1_0_0_1_n_n none (indicatorRows x0)
      (shapeCast S8448x1024 x1 shapeCasts_S8448x1024_S8448x1024 : FVec Ideal S8448x1024 .bf16) (constant (F := Ideal) S128x1024 .f32 0x00000000#32))
    (broadcastTo S128x1024 (shapeCast S1x1024 x2 shapeCasts_S1x1024_S1x1024) broadcasts_S1x1024_S128x1024))
    (broadcast S128x1024 (Scalar.ofBits (F := Ideal) .f32 0x00000000#32))

/-- A later layer of the body: the block before it times a square weight block, plus the bias row, rectified. -/
def later (w : Vec Ideal S1024x1024 .bf16) (b : Vec Ideal S1x1024 .f32) (a : FVec Ideal S128x1024 .f32) : FVec Ideal S128x1024 .f32 :=
  maximumf (addf (matmul dot_S128x1024_S1024x1024_S128x1024_1_0_0_1_n_n none (truncf .bf16 a bitsLt_bf16_f32)
      (shapeCast S1024x1024 w shapeCasts_S1024x1024_S1024x1024 : FVec Ideal S1024x1024 .bf16) (constant (F := Ideal) S128x1024 .f32 0x00000000#32))
    (broadcastTo S128x1024 (shapeCast S1x1024 b shapeCasts_S1x1024_S1x1024) broadcasts_S1x1024_S128x1024))
    (broadcast S128x1024 (Scalar.ofBits (F := Ideal) .f32 0x00000000#32))

/-- The two payloads of the body, composed, are the four layers composed. -/
theorem body_eq_layers (x0 : Vec Ideal S128x256 .i32) (x1 : Vec Ideal S8448x1024 .bf16) (x2 : Vec Ideal S1x1024 .f32)
    (x3 : Vec Ideal S1024x1024 .bf16) (x4 : Vec Ideal S1x1024 .f32) (x5 : Vec Ideal S1024x1024 .bf16) (x6 : Vec Ideal S1x1024 .f32) :
    k0_pay2 x0 x1 x2 x3 x4 x5 x6 = later x5 x6 (later x3 x4 (first x0 x1 x2)) := rfl

/-- The first layer at (r, d), when row `r` of the block of ids is row `R` of `X`, the weight block is `W` read
    transposed and the bias block is `B` along its one row. -/
theorem first_at (x0 : Vec Ideal S128x256 .i32) (x1 : Vec Ideal S8448x1024 .bf16) (x2 : Vec Ideal S1x1024 .f32)
    (xr : Fin 256 → BitVec 32) (W : (⟨2, ![1024, 8448]⟩ : Shape).Idx → EReal) (B : (⟨1, ![1024]⟩ : Shape).Idx → EReal)
    (r : Fin 128) (d : Fin 1024)
    (h0 : ∀ p : Fin 256, x0 (ix2 r p) = xr p)
    (h1 : ∀ (k : Fin 8448) (e : Fin 1024), x1 (ix2 k e) = W (ix2 e k))
    (h2 : ∀ e : Fin 1024, x2 (ix2 (0 : Fin 1) e) = B (ix1 e)) :
    first x0 x1 x2 (ix2 r d) = hidden1 W B xr d := by
  unfold first
  show max (matmul (F := Ideal) (φ₁ := .bf16) (φ₂ := .bf16) dot_S128x8448_S8448x1024_S128x1024_1_0_0_1_n_n none _ _ _ (ix2 r d) + broadcastTo S128x1024 _ _ (ix2 r d)) _ = _
  rw [prod_in, bias_row, shapeCast_self, h2]
  unfold hidden1
  simp only [indicator_at, h1]
  have e : (fun p => x0 (ix2 r p)) = xr := funext h0
  rw [e]
  rfl

/-- A later layer at (r, d), of row `r` of the block before it. -/
theorem later_at (w : Vec Ideal S1024x1024 .bf16) (b : Vec Ideal S1x1024 .f32) (a : FVec Ideal S128x1024 .f32)
    (W : (⟨2, ![1024, 1024]⟩ : Shape).Idx → EReal) (B : (⟨1, ![1024]⟩ : Shape).Idx → EReal) (r : Fin 128) (d : Fin 1024)
    (hw : ∀ (k e : Fin 1024), w (ix2 k e) = W (ix2 e k))
    (hb : ∀ e : Fin 1024, b (ix2 (0 : Fin 1) e) = B (ix1 e)) :
    later w b a (ix2 r d) = hidden W B (fun k => a (ix2 r k)) d := by
  unfold later
  show max (matmul (F := Ideal) (φ₁ := .bf16) (φ₂ := .bf16) dot_S128x1024_S1024x1024_S128x1024_1_0_0_1_n_n none _ _ _ (ix2 r d) + broadcastTo S128x1024 _ _ (ix2 r d)) _ = _
  rw [prod_mid, bias_row, shapeCast_self, hb]
  unfold hidden
  simp only [hw]
  rfl

/-- The read-out of the body at (r, 0), of row `r` of the last hidden block. -/
theorem readout_at (a : FVec Ideal S128x1024 .f32) (x7 : Vec Ideal S1024x1 .bf16) (x8 : Vec Ideal S1x1 .f32)
    (Wo : (⟨2, ![1, 1024]⟩ : Shape).Idx → EReal) (bo : (⟨1, ![1]⟩ : Shape).Idx → EReal) (r : Fin 128) (q : Fin 1)
    (h7 : ∀ k : Fin 1024, x7 (ix2 k (0 : Fin 1)) = Wo (ix2 (0 : Fin 1) k))
    (h8 : x8 (ix2 (0 : Fin 1) (0 : Fin 1)) = bo (ix1 (0 : Fin 1))) :
    k0_pay1 a x7 x8 (ix2 r q) = readout Wo bo (fun k => a (ix2 r k)) := by
  unfold k0_pay1
  show matmul (F := Ideal) (φ₁ := .bf16) (φ₂ := .bf16) dot_S128x1024_S1024x1_S128x1_1_0_0_1_n_n none _ _ _ (ix2 r q) + broadcastTo S128x1 _ _ (ix2 r q) = _
  rw [prod_out, bias_one, shapeCast_self, h8]
  unfold readout
  have hq : q = (0 : Fin 1) := Fin.ext (by omega)
  subst hq
  simp only [h7]
  rfl

/-- THE BODY AT AN INDEX: what one grid point stores at (r, 0) is the network on the row of ids its row `r` holds,
    with each weight block read transposed and each bias block along its one row. -/
theorem body_at (x0 : Vec Ideal S128x256 .i32) (x1 : Vec Ideal S8448x1024 .bf16) (x2 : Vec Ideal S1x1024 .f32)
    (x3 : Vec Ideal S1024x1024 .bf16) (x4 : Vec Ideal S1x1024 .f32) (x5 : Vec Ideal S1024x1024 .bf16) (x6 : Vec Ideal S1x1024 .f32)
    (x7 : Vec Ideal S1024x1 .bf16) (x8 : Vec Ideal S1x1 .f32)
    (xr : Fin 256 → BitVec 32)
    (W1 : (⟨2, ![1024, 8448]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (W3 : (⟨2, ![1024, 1024]⟩ : Shape).Idx → EReal) (b3 : (⟨1, ![1024]⟩ : Shape).Idx → EReal)
    (Wo : (⟨2, ![1, 1024]⟩ : Shape).Idx → EReal) (bo : (⟨1, ![1]⟩ : Shape).Idx → EReal)
    (r : Fin 128) (q : Fin 1)
    (h0 : ∀ p : Fin 256, x0 (ix2 r p) = xr p)
    (h1 : ∀ (k : Fin 8448) (e : Fin 1024), x1 (ix2 k e) = W1 (ix2 e k))
    (h2 : ∀ e : Fin 1024, x2 (ix2 (0 : Fin 1) e) = b1 (ix1 e))
    (h3 : ∀ (k e : Fin 1024), x3 (ix2 k e) = W2 (ix2 e k))
    (h4 : ∀ e : Fin 1024, x4 (ix2 (0 : Fin 1) e) = b2 (ix1 e))
    (h5 : ∀ (k e : Fin 1024), x5 (ix2 k e) = W3 (ix2 e k))
    (h6 : ∀ e : Fin 1024, x6 (ix2 (0 : Fin 1) e) = b3 (ix1 e))
    (h7 : ∀ k : Fin 1024, x7 (ix2 k (0 : Fin 1)) = Wo (ix2 (0 : Fin 1) k))
    (h8 : x8 (ix2 (0 : Fin 1) (0 : Fin 1)) = bo (ix1 (0 : Fin 1))) :
    k0_pay1 (k0_pay2 x0 x1 x2 x3 x4 x5 x6) x7 x8 (ix2 r q) = rowOut W1 b1 W2 b2 W3 b3 Wo bo xr := by
  rw [body_eq_layers, readout_at _ x7 x8 Wo bo r q h7 h8,
    show (fun k => later x5 x6 (later x3 x4 (first x0 x1 x2)) (ix2 r k))
      = hidden W3 b3 (fun k => later x3 x4 (first x0 x1 x2) (ix2 r k)) from funext fun d => later_at x5 x6 _ W3 b3 r d h5 h6,
    show (fun k => later x3 x4 (first x0 x1 x2) (ix2 r k))
      = hidden W2 b2 (fun k => first x0 x1 x2 (ix2 r k)) from funext fun d => later_at x3 x4 _ W2 b2 r d h3 h4,
    show (fun k => first x0 x1 x2 (ix2 r k)) = hidden1 W1 b1 xr from funext fun d => first_at x0 x1 x2 xr W1 b1 r d h0 h1 h2]
  rfl

end Cert.OneHotMlp.Body

end
-- ==== Proof.KernelArray.lean ====
/-
  The kernel's result array is `net` of the arguments.

  Before the region the host transposes each weight matrix (so the blocks the body loads are stored
  [input unit, output unit]) and reshapes each bias vector to one row; the changes of float format are the identity
  on extended reals. The grid has 32 points; point `t` stages rows 128·t … 128·t + 127 of the ids and the whole of
  every weight and bias array, and writes rows 128·t … 128·t + 127 of the [4096, 1] result. So what point `t`
  writes at row `r` of its block is, by the body read at an index, `rowOut` of row 128·t + r of the ids — block
  `t` of `net` —, and the 32 blocks tile the result: row `i` lies in the block of point `i / 128`.
-/
import proofs.«111496_j73813307949089_1_alg».proof.Proof.Gen.KernelIdeal.Value
import proofs.«111496_j73813307949089_1_alg».proof.Proof.KernelPayload
import Idealize.ShloMosaic.Lib.Pipeline.Value
import Idealize.ShloMosaic.Lib.StableHlo.Run
import Idealize.ShloMosaic.Lib.ValueIdx

set_option maxRecDepth 16384

noncomputable section

namespace Cert.OneHotMlp.Kernel

open Cert.KernelIdeal Cert.KernelIdeal.Gen Idealize.ShloMosaic Idealize.ShloMosaic.TcCoe Idealize.SL.Sem
open Idealize.ShloMosaic.ValueIdx Cert.OneHotMlp
open Idealize.ShloMosaic.Pipeline (Dat)

variable (m : (ℓ : Loc nD τ sig) → Buf (Elt Ideal) ℓ) (ρ : Dev nD → PrngReg)

/-! ## The arrays the region finds -/

/-- The first weight array as staged: the argument transposed. -/
theorem staged_w1 (c : Dev nD) : (V m c main_v1 : S8448x1024.Idx → EReal)
    = truncf (F := Ideal) .bf16 (transpose S8448x1024 [1, 0] (m ((c : Thread nD τ).loc main_arg1)) transposes_S1024x8448_S8448x1024_1_0) bitsLt_bf16_f32 := by
  dsimp only [Gen.V, Gen.hostOps0]; after_results

theorem staged_w2 (c : Dev nD) : (V m c main_v3 : S1024x1024.Idx → EReal)
    = truncf (F := Ideal) .bf16 (transpose S1024x1024 [1, 0] (m ((c : Thread nD τ).loc main_arg3)) transposes_S1024x1024_S1024x1024_1_0) bitsLt_bf16_f32 := by
  dsimp only [Gen.V, Gen.hostOps0]; after_results

theorem staged_w3 (c : Dev nD) : (V m c main_v5 : S1024x1024.Idx → EReal)
    = truncf (F := Ideal) .bf16 (transpose S1024x1024 [1, 0] (m ((c : Thread nD τ).loc main_arg5)) transposes_S1024x1024_S1024x1024_1_0) bitsLt_bf16_f32 := by
  dsimp only [Gen.V, Gen.hostOps0]; after_results

theorem staged_wo (c : Dev nD) : (V m c main_v7 : S1024x1.Idx → EReal)
    = truncf (F := Ideal) .bf16 (transpose S1024x1 [1, 0] (m ((c : Thread nD τ).loc main_arg7)) transposes_S1x1024_S1024x1_1_0) bitsLt_bf16_f32 := by
  dsimp only [Gen.V, Gen.hostOps0]; after_results

/-- The first bias array as staged: the argument as one row. -/
theorem staged_b1 (c : Dev nD) : (V m c main_v8 : S1x1024.Idx → EReal)
    = shapeCast S1x1024 (m ((c : Thread nD τ).loc main_arg2)) shapeCasts_S1024_S1x1024 := by
  dsimp only [Gen.V, Gen.hostOps0]; after_results; rfl

theorem staged_b2 (c : Dev nD) : (V m c main_v9 : S1x1024.Idx → EReal)
    = shapeCast S1x1024 (m ((c : Thread nD τ).loc main_arg4)) shapeCasts_S1024_S1x1024 := by
  dsimp only [Gen.V, Gen.hostOps0]; after_results; rfl

theorem staged_b3 (c : Dev nD) : (V m c main_v10 : S1x1024.Idx → EReal)
    = shapeCast S1x1024 (m ((c : Thread nD τ).loc main_arg6)) shapeCasts_S1024_S1x1024 := by
  dsimp only [Gen.V, Gen.hostOps0]; after_results; rfl

theorem staged_bo (c : Dev nD) : (V m c main_v11 : S1x1.Idx → EReal)
    = shapeCast S1x1 (m ((c : Thread nD τ).loc main_arg8)) shapeCasts_S1_S1x1 := by
  dsimp only [Gen.V, Gen.hostOps0]; after_results; rfl

/-! ## Where each window's block sits -/

/-- The printed index maps over the 32 points: the ids and the result move one block of rows per point; every weight
    and bias window stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-! ## Each staged block, read at an index -/

/-- Row `r` of point `t`'s block of ids is row 128·t + r of the ids. -/
theorem ids_block (c : Dev nD) (t : Fin cfg0.N) (r : Fin 128) (R : Fin 4096) (hR : R.val = t.val * 128 + r.val) (p : Fin 256) :
    iblk m c 0 t (ix2 r p) = (m ((c : Thread nD τ).loc main_arg0)) (ix2 R p) := by
  obtain ⟨a0, a1, b0, b1, c0, c1, d0, d1, e0, e1, f0, f1, g0, g1, h0, h1, i0, i1, j0, j1⟩ := idx_facts t
  show V m c main_arg0 (((cfg0.win 0).blk t).view.emb (ix2 r p)) = _
  rw [V_main_arg0]
  refine congrArg _ (funext fun a => Fin.ext ?_)
  match a with
  | ⟨0, _⟩ => show win0_0.index t (0 : Fin 2) * 128 + 1 * r.val = R.val; rw [a0, hR]; omega
  | ⟨1, _⟩ => show win0_0.index t (1 : Fin 2) * 256 + 1 * p.val = p.val; rw [a1]; omega

/-- The first weight block at (k, e) is the first weight matrix at [e, k]. -/
theorem w1_block (c : Dev nD) (t : Fin cfg0.N) (k : Fin 8448) (e : Fin 1024) :
    iblk m c 1 t (ix2 k e) = (m ((c : Thread nD τ).loc main_arg1)) (ix2 e k) := by
  obtain ⟨a0, a1, b0, b1, c0, c1, d0, d1, e0, e1, f0, f1, g0, g1, h0, h1, i0, i1, j0, j1⟩ := idx_facts t
  have hemb : ((cfg0.win 1).blk t).view.emb (ix2 k e) = ix2 k e := funext fun a => Fin.ext (by
    match a with
    | ⟨0, _⟩ => show win0_1.index t (0 : Fin 2) * 8448 + 1 * k.val = k.val; rw [b0]; omega
    | ⟨1, _⟩ => show win0_1.index t (1 : Fin 2) * 1024 + 1 * e.val = e.val; rw [b1]; omega)
  show (V m c main_v1 : S8448x1024.Idx → EReal) (((cfg0.win 1).blk t).view.emb (ix2 k e)) = _
  rw [hemb, staged_w1]
  show transpose S8448x1024 [1, 0] (m ((c : Thread nD τ).loc main_arg1)) transposes_S1024x8448_S8448x1024_1_0 (ix2 k e) = _
  exact transpose_apply [1, 0] _ transposes_S1024x8448_S8448x1024_1_0 (ix2 k e) (ix2 e k) (fun b => match b with
    | ⟨0, _⟩ => rfl
    | ⟨1, _⟩ => rfl)

/-- The first bias block at (0, e) is the first bias vector at e. -/
theorem b1_block (c : Dev nD) (t : Fin cfg0.N) (e : Fin 1024) :
    iblk m c 2 t (ix2 (0 : Fin 1) e) = (m ((c : Thread nD τ).loc main_arg2)) (ix1 e) := by
  obtain ⟨a0, a1, b0, b1, c0, c1, d0, d1, e0, e1, f0, f1, g0, g1, h0, h1, i0, i1, j0, j1⟩ := idx_facts t
  have hemb : ((cfg0.win 2).blk t).view.emb (ix2 (0 : Fin 1) e) = ix2 (0 : Fin 1) e := funext fun a => Fin.ext (by
    match a with
    | ⟨0, _⟩ => show win0_2.index t (0 : Fin 2) * 1 + 1 * 0 = 0; rw [c0]
    | ⟨1, _⟩ => show win0_2.index t (1 : Fin 2) * 1024 + 1 * e.val = e.val; rw [c1]; omega)
  show (V m c main_v8 : S1x1024.Idx → EReal) (((cfg0.win 2).blk t).view.emb (ix2 (0 : Fin 1) e)) = _
  rw [hemb, staged_b1]
  exact shapeCast_apply _ shapeCasts_S1024_S1x1024 (ix2 (0 : Fin 1) e) (ix1 e)
    (by rw [Shape.rowMajor_val_one, Shape.rowMajor_val_two]; show e.val = 0 * 1024 + e.val; omega)

/-- The second weight block at (k, e) is the second weight matrix at [e, k]. -/
theorem w2_block (c : Dev nD) (t : Fin cfg0.N) (k : Fin 1024) (e : Fin 1024) :
    iblk m c 3 t (ix2 k e) = (m ((c : Thread nD τ).loc main_arg3)) (ix2 e k) := by
  obtain ⟨a0, a1, b0, b1, c0, c1, d0, d1, e0, e1, f0, f1, g0, g1, h0, h1, i0, i1, j0, j1⟩ := idx_facts t
  have hemb : ((cfg0.win 3).blk t).view.emb (ix2 k e) = ix2 k e := funext fun a => Fin.ext (by
    match a with
    | ⟨0, _⟩ => show win0_3.index t (0 : Fin 2) * 1024 + 1 * k.val = k.val; rw [d0]; omega
    | ⟨1, _⟩ => show win0_3.index t (1 : Fin 2) * 1024 + 1 * e.val = e.val; rw [d1]; omega)
  show (V m c main_v3 : S1024x1024.Idx → EReal) (((cfg0.win 3).blk t).view.emb (ix2 k e)) = _
  rw [hemb, staged_w2]
  show transpose S1024x1024 [1, 0] (m ((c : Thread nD τ).loc main_arg3)) transposes_S1024x1024_S1024x1024_1_0 (ix2 k e) = _
  exact transpose_apply [1, 0] _ transposes_S1024x1024_S1024x1024_1_0 (ix2 k e) (ix2 e k) (fun b => match b with
    | ⟨0, _⟩ => rfl
    | ⟨1, _⟩ => rfl)

/-- The second bias block at (0, e) is the second bias vector at e. -/
theorem b2_block (c : Dev nD) (t : Fin cfg0.N) (e : Fin 1024) :
    iblk m c 4 t (ix2 (0 : Fin 1) e) = (m ((c : Thread nD τ).loc main_arg4)) (ix1 e) := by
  obtain ⟨a0, a1, b0, b1, c0, c1, d0, d1, e0, e1, f0, f1, g0, g1, h0, h1, i0, i1, j0, j1⟩ := idx_facts t
  have hemb : ((cfg0.win 4).blk t).view.emb (ix2 (0 : Fin 1) e) = ix2 (0 : Fin 1) e := funext fun a => Fin.ext (by
    match a with
    | ⟨0, _⟩ => show win0_4.index t (0 : Fin 2) * 1 + 1 * 0 = 0; rw [e0]
    | ⟨1, _⟩ => show win0_4.index t (1 : Fin 2) * 1024 + 1 * e.val = e.val; rw [e1]; omega)
  show (V m c main_v9 : S1x1024.Idx → EReal) (((cfg0.win 4).blk t).view.emb (ix2 (0 : Fin 1) e)) = _
  rw [hemb, staged_b2]
  exact shapeCast_apply _ shapeCasts_S1024_S1x1024 (ix2 (0 : Fin 1) e) (ix1 e)
    (by rw [Shape.rowMajor_val_one, Shape.rowMajor_val_two]; show e.val = 0 * 1024 + e.val; omega)

/-- The third weight block at (k, e) is the third weight matrix at [e, k]. -/
theorem w3_block (c : Dev nD) (t : Fin cfg0.N) (k : Fin 1024) (e : Fin 1024) :
    iblk m c 5 t (ix2 k e) = (m ((c : Thread nD τ).loc main_arg5)) (ix2 e k) := by
  obtain ⟨a0, a1, b0, b1, c0, c1, d0, d1, e0, e1, f0, f1, g0, g1, h0, h1, i0, i1, j0, j1⟩ := idx_facts t
  have hemb : ((cfg0.win 5).blk t).view.emb (ix2 k e) = ix2 k e := funext fun a => Fin.ext (by
    match a with
    | ⟨0, _⟩ => show win0_5.index t (0 : Fin 2) * 1024 + 1 * k.val = k.val; rw [f0]; omega
    | ⟨1, _⟩ => show win0_5.index t (1 : Fin 2) * 1024 + 1 * e.val = e.val; rw [f1]; omega)
  show (V m c main_v5 : S1024x1024.Idx → EReal) (((cfg0.win 5).blk t).view.emb (ix2 k e)) = _
  rw [hemb, staged_w3]
  show transpose S1024x1024 [1, 0] (m ((c : Thread nD τ).loc main_arg5)) transposes_S1024x1024_S1024x1024_1_0 (ix2 k e) = _
  exact transpose_apply [1, 0] _ transposes_S1024x1024_S1024x1024_1_0 (ix2 k e) (ix2 e k) (fun b => match b with
    | ⟨0, _⟩ => rfl
    | ⟨1, _⟩ => rfl)

/-- The third bias block at (0, e) is the third bias vector at e. -/
theorem b3_block (c : Dev nD) (t : Fin cfg0.N) (e : Fin 1024) :
    iblk m c 6 t (ix2 (0 : Fin 1) e) = (m ((c : Thread nD τ).loc main_arg6)) (ix1 e) := by
  obtain ⟨a0, a1, b0, b1, c0, c1, d0, d1, e0, e1, f0, f1, g0, g1, h0, h1, i0, i1, j0, j1⟩ := idx_facts t
  have hemb : ((cfg0.win 6).blk t).view.emb (ix2 (0 : Fin 1) e) = ix2 (0 : Fin 1) e := funext fun a => Fin.ext (by
    match a with
    | ⟨0, _⟩ => show win0_6.index t (0 : Fin 2) * 1 + 1 * 0 = 0; rw [g0]
    | ⟨1, _⟩ => show win0_6.index t (1 : Fin 2) * 1024 + 1 * e.val = e.val; rw [g1]; omega)
  show (V m c main_v10 : S1x1024.Idx → EReal) (((cfg0.win 6).blk t).view.emb (ix2 (0 : Fin 1) e)) = _
  rw [hemb, staged_b3]
  exact shapeCast_apply _ shapeCasts_S1024_S1x1024 (ix2 (0 : Fin 1) e) (ix1 e)
    (by rw [Shape.rowMajor_val_one, Shape.rowMajor_val_two]; show e.val = 0 * 1024 + e.val; omega)

/-- The read-out column at (k, 0) is the read-out row at [0, k]. -/
theorem wo_block (c : Dev nD) (t : Fin cfg0.N) (k : Fin 1024) :
    iblk m c 7 t (ix2 k (0 : Fin 1)) = (m ((c : Thread nD τ).loc main_arg7)) (ix2 (0 : Fin 1) k) := by
  obtain ⟨a0, a1, b0, b1, c0, c1, d0, d1, e0, e1, f0, f1, g0, g1, h0, h1, i0, i1, j0, j1⟩ := idx_facts t
  have hemb : ((cfg0.win 7).blk t).view.emb (ix2 k (0 : Fin 1)) = ix2 k (0 : Fin 1) := funext fun a => Fin.ext (by
    match a with
    | ⟨0, _⟩ => show win0_7.index t (0 : Fin 2) * 1024 + 1 * k.val = k.val; rw [h0]; omega
    | ⟨1, _⟩ => show win0_7.index t (1 : Fin 2) * 1 + 1 * 0 = 0; rw [h1])
  show (V m c main_v7 : S1024x1.Idx → EReal) (((cfg0.win 7).blk t).view.emb (ix2 k (0 : Fin 1))) = _
  rw [hemb, staged_wo]
  show transpose S1024x1 [1, 0] (m ((c : Thread nD τ).loc main_arg7)) transposes_S1x1024_S1024x1_1_0 (ix2 k (0 : Fin 1)) = _
  exact transpose_apply [1, 0] _ transposes_S1x1024_S1024x1_1_0 (ix2 k (0 : Fin 1)) (ix2 (0 : Fin 1) k) (fun b => match b with
    | ⟨0, _⟩ => rfl
    | ⟨1, _⟩ => rfl)

/-- The read-out bias block's one entry is the read-out bias. -/
theorem bo_block (c : Dev nD) (t : Fin cfg0.N) :
    iblk m c 8 t (ix2 (0 : Fin 1) (0 : Fin 1)) = (m ((c : Thread nD τ).loc main_arg8)) (ix1 (0 : Fin 1)) := by
  obtain ⟨a0, a1, b0, b1, c0, c1, d0, d1, e0, e1, f0, f1, g0, g1, h0, h1, i0, i1, j0, j1⟩ := idx_facts t
  have hemb : ((cfg0.win 8).blk t).view.emb (ix2 (0 : Fin 1) (0 : Fin 1)) = ix2 (0 : Fin 1) (0 : Fin 1) := funext fun a => Fin.ext (by
    match a with
    | ⟨0, _⟩ => show win0_8.index t (0 : Fin 2) * 1 + 1 * 0 = 0; rw [i0]
    | ⟨1, _⟩ => show win0_8.index t (1 : Fin 2) * 1 + 1 * 0 = 0; rw [i1])
  show (V m c main_v11 : S1x1.Idx → EReal) (((cfg0.win 8).blk t).view.emb (ix2 (0 : Fin 1) (0 : Fin 1))) = _
  rw [hemb, staged_bo]
  exact shapeCast_apply _ shapeCasts_S1_S1x1 (ix2 (0 : Fin 1) (0 : Fin 1)) (ix1 (0 : Fin 1))
    (by rw [Shape.rowMajor_val_one, Shape.rowMajor_val_two]; rfl)

/-! ## What a point writes back, the cover, and the array after the run -/

/-- `net` of the argument arrays as launched on core `c`. -/
def result (c : Dev nD) : S4096x1.Idx → EReal :=
  net (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

theorem zero_offsets : (![0, 0] : Fin 2 → Nat) = fun _ => 0 := funext fun a => by fin_cases a <;> rfl

/-- WHAT POINT `t` WRITES BACK is block `t` of `result`: at row `r` of the block, the network on row 128·t + r of
    the ids. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  rw [View.canon_unit_zero zero_offsets]
  simp only [View.ld_unit_zero (S := S128x256) zero_offsets, View.ld_unit_zero (S := S8448x1024) zero_offsets,
    View.ld_unit_zero (S := S1x1024) zero_offsets, View.ld_unit_zero (S := S1024x1024) zero_offsets,
    View.ld_unit_zero (S := S1024x1) zero_offsets, View.ld_unit_zero (S := S1x1) zero_offsets]
  funext y
  obtain ⟨r, q, rfl⟩ : ∃ (r : Fin 128) (q : Fin 1), y = ix2 r q := ⟨y 0, y 1, eq_ix2 y⟩
  have hN : cfg0.N = 32 := N_0
  have ht : t.val < 32 := by have := t.isLt; omega
  have hr : r.val < 128 := r.isLt
  obtain ⟨a0, a1, b0, b1, c0, c1, d0, d1, e0, e1, f0, f1, g0, g1, h0, h1, i0, i1, j0, j1⟩ := idx_facts t
  have hemb : ((cfg0.win 9).blk t).view.emb (ix2 r q) = ix2 (⟨t.val * 128 + r.val, by omega⟩ : Fin 4096) q := funext fun a => Fin.ext (by
    match a with
    | ⟨0, _⟩ => show win0_9.index t (0 : Fin 2) * 128 + 1 * r.val = t.val * 128 + r.val; rw [j0]; omega
    | ⟨1, _⟩ => show win0_9.index t (1 : Fin 2) * 1 + 1 * q.val = q.val; rw [j1]; omega)
  show k0_pay1 (k0_pay2 (iblk m c 0 t) (iblk m c 1 t) (iblk m c 2 t) (iblk m c 3 t) (iblk m c 4 t) (iblk m c 5 t) (iblk m c 6 t))
      (iblk m c 7 t) (iblk m c 8 t) (ix2 r q)
    = result m c (((cfg0.win 9).blk t).view.emb (ix2 r q))
  rw [hemb]
  exact Body.body_at (iblk m c 0 t) (iblk m c 1 t) (iblk m c 2 t) (iblk m c 3 t) (iblk m c 4 t) (iblk m c 5 t) (iblk m c 6 t)
    (iblk m c 7 t) (iblk m c 8 t)
    (fun p => (m ((c : Thread nD τ).loc main_arg0)) (ix2 (⟨t.val * 128 + r.val, by omega⟩ : Fin 4096) p))
    (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) r q
    (ids_block m c t r (⟨t.val * 128 + r.val, by omega⟩ : Fin 4096) rfl) (w1_block m c t) (b1_block m c t) (w2_block m c t) (b2_block m c t)
    (w3_block m c t) (b3_block m c t) (wo_block m c t) (bo_block m c t)

/-- An index of the result is in point `t`'s block iff each coordinate is in the block's range on its axis. -/
theorem mem_blk (t : Fin cfg0.N) (i : S4096x1.Idx) :
    i ∈ ((cfg0.win 9).blk t).view.set ↔ ∀ a : Fin 2, win0_9.index t a * S128x1.size a ≤ (i a).val ∧ (i a).val < win0_9.index t a * S128x1.size a + S128x1.size a := by
  show i ∈ ((View.whole main_v12).slice (win0_9.rect t)).set ↔ _
  rw [View.set_slice_whole, Rect.mem_set_unit]
  exact Iff.rfl

/-- THE COVER: row `i` of the result lies in the block of point `i / 128`. -/
theorem cover (i : S4096x1.Idx) : ∃ t : Fin cfg0.N, (cfg0.win 9).flush t = true ∧ i ∈ ((cfg0.win 9).blk t).view.set := by
  have hN : cfg0.N = 32 := N_0
  have hi0 : (i 0).val < 4096 := (i 0).isLt
  have hi1 : (i 1).val < 1 := (i 1).isLt
  obtain ⟨t, htv⟩ : ∃ t : Fin cfg0.N, t.val = (i 0).val / 128 := ⟨⟨(i 0).val / 128, by omega⟩, rfl⟩
  obtain ⟨a0, a1, b0, b1, c0, c1, d0, d1, e0, e1, f0, f1, g0, g1, h0, h1, i0, i1, j0, j1⟩ := idx_facts t
  refine ⟨t, flush0_9 t, ?_⟩
  rw [mem_blk]
  intro a
  match a with
  | ⟨0, _⟩ =>
    show win0_9.index t (0 : Fin 2) * 128 ≤ (i 0).val ∧ (i 0).val < win0_9.index t (0 : Fin 2) * 128 + 128
    rw [j0, htv]; omega
  | ⟨1, _⟩ =>
    show win0_9.index t (1 : Fin 2) * 1 ≤ (i 1).val ∧ (i 1).val < win0_9.index t (1 : Fin 2) * 1 + 1
    rw [j1]; omega

/-- THE ARRAY after the run is `result`. -/
theorem final (c : Dev nD) : (dats m 0 c).arrAt 9 cfg0.N = result m c :=
  (dats m 0 c).arrAt_eq_of_cover 9 (result m c) (fun t _ => flushed_eq m c t) cover

/-- The kernel's run: every weakly fair execution terminates with the result array at `result` and the arguments
    unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.OneHotMlp.Kernel

end
-- ==== Proof.lean ====
/-
  A one-hot MLP kernel against its jnp reference, over the extended reals.

  Both programs take a [4096, 256] array of token ids and the weights of four affine layers, and return a
  [4096, 1] array. Row by row they compute the same number: the ids of a row are spread into 256 · 33 indicator
  entries, three layers `max (W h + b) 0` follow, and one affine read-out (`Spec`: `rowOut`, and `net`, the
  result array with `rowOut` of row r at (r, 0)).

  The kernel does it 128 rows per grid point, against weights the host has transposed and rounded to bf16 — a
  rounding that is the identity on extended reals —, each product accumulated from zero (`KernelPayload`: the body
  read at an index; `KernelArray`: the 32 blocks tile the result, so the array after the run is `net`). The
  reference does it on all 4096 rows at once with `dot_general` (`RefSide`: its last stage is `net`). No step
  uses more of the extended reals than that both sides write the same sums of the same products in the same order,
  so the precondition is never opened. The idealized kernel is the kernel's own text read at the ideal values, so
  there is nothing to preserve; the three frames are the generated frame runs, the reference's with its result
  dropped.
-/
import proofs.«111496_j73813307949089_1_alg».proof.Defs
import proofs.«111496_j73813307949089_1_alg».proof.Proof.Gen.Kernel
import proofs.«111496_j73813307949089_1_alg».proof.Proof.Gen.Kernel.Frame
import proofs.«111496_j73813307949089_1_alg».proof.Proof.Gen.KernelIdeal
import proofs.«111496_j73813307949089_1_alg».proof.Proof.Gen.KernelIdeal.Frame
import proofs.«111496_j73813307949089_1_alg».proof.Proof.Gen.KernelIdeal.Value
import proofs.«111496_j73813307949089_1_alg».proof.Proof.Gen.ReferenceIdeal
import proofs.«111496_j73813307949089_1_alg».proof.Proof.Gen.ReferenceIdeal.Run
import proofs.«111496_j73813307949089_1_alg».proof.Proof.Gen.ReferenceIdeal.Read
import proofs.«111496_j73813307949089_1_alg».proof.Proof.Gen.Pre_finite_inputs
import proofs.«111496_j73813307949089_1_alg».proof.Proof.RefSide
import proofs.«111496_j73813307949089_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at `net` of the arguments:
    the kernel's run ends there (`Kernel.run`), the reference's at its last stage, which is `net`
    (`Ref.stage_eq_net`) of arguments that are the kernel's. -/
theorem algebraic : Cert.algebraic_KernelIdeal_ReferenceIdeal := by
  intro m ρ m' ρ' _ hagree
  refine ⟨fun c => Cert.OneHotMlp.Kernel.result m c, Cert.OneHotMlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.OneHotMlp.Ref.stage_eq_net,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
